-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x600000 32) (main_arg2 : FVec F S128x64 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x600000 : Shape := ⟨2, ![2, 600000]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x64 : Shape := ⟨2, ![1, 64]⟩
abbrev S50000x64 : Shape := ⟨2, ![50000, 64]⟩
abbrev S10000x128 : Shape := ⟨2, ![10000, 128]⟩
abbrev S10000x64 : Shape := ⟨2, ![10000, 64]⟩

abbrev nBuf : Space → Nat
  | .hbm => 55
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x64, .f32⟩
  | .hbm, ⟨3, _⟩ => ⟨S64, .f32⟩
  | .hbm, ⟨4, _⟩ => ⟨S50000, .i32⟩
  | .hbm, ⟨5, _⟩ => ⟨S1x600000, .i32⟩
  | .hbm, ⟨6, _⟩ => ⟨S600000, .i32⟩
  | .hbm, ⟨7, _⟩ => ⟨S650000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S650000, .i32⟩
  | .hbm, ⟨20, _⟩ => ⟨S650000, .i1⟩
  | .hbm, ⟨21, _⟩ => ⟨S_, .i32⟩
  | .hbm, ⟨22, _⟩ => ⟨S650000, .i32⟩
  | .hbm, ⟨23, _⟩ => ⟨S650000, .i32⟩
  | .hbm, ⟨24, _⟩ => ⟨S650000, .i32⟩
  | .hbm, ⟨25, _⟩ => ⟨S650000x1, .i32⟩
  | .hbm, ⟨26, _⟩ => ⟨S650000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000x128, .f32⟩
  | .hbm, ⟨46, _⟩ => ⟨S650000x1, .f32⟩
  | .hbm, ⟨47, _⟩ => ⟨S650000x128, .f32⟩
  | .hbm, ⟨48, _⟩ => ⟨S650000x128, .f32⟩
  | .hbm, ⟨49, _⟩ => ⟨S_, .f32⟩
  | .hbm, ⟨50, _⟩ => ⟨S50000x128, .f32⟩
  | .hbm, ⟨51, _⟩ => ⟨S650000x1, .i32⟩
  | .hbm, ⟨52, _⟩ => ⟨S50000x128, .f32⟩
  | .hbm, ⟨53, _⟩ => ⟨S1x64, .f32⟩
  | .hbm, ⟨54, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v39) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x64 : Shape := ⟨2, ![50000, 64]⟩
abbrev S1x64 : Shape := ⟨2, ![1, 64]⟩

abbrev nBuf : Space → Nat
  | .hbm => 57
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x64, .f32⟩
  | .hbm, ⟨3, _⟩ => ⟨S64, .f32⟩
  | .hbm, ⟨4, _⟩ => ⟨S50000, .i32⟩
  | .hbm, ⟨5, _⟩ => ⟨S1x600000, .i32⟩
  | .hbm, ⟨6, _⟩ => ⟨S600000, .i32⟩
  | .hbm, ⟨7, _⟩ => ⟨S650000, .i32⟩
  | .hbm, ⟨8, _⟩ => ⟨S1x600000, .i32⟩
  | .hbm, ⟨9, _⟩ => ⟨S600000, .i32⟩
  | .hbm, ⟨10, _⟩ => ⟨S650000, .i32⟩
  | .hbm, ⟨11, _⟩ => ⟨S_, .f32⟩
  | .hbm, ⟨12, _⟩ => ⟨S650000, .f32⟩
  | .hbm, ⟨13, _⟩ => ⟨S_, .f32⟩
  | .hbm, ⟨14, _⟩ => ⟨S50000, .f32⟩
  | .hbm, ⟨15, _⟩ => ⟨S650000x1, .i32⟩
  | .hbm, ⟨16, _⟩ => ⟨S50000, .f32⟩
  | .hbm, ⟨17, _⟩ => ⟨S50000, .f32⟩
  | .hbm, ⟨18, _⟩ => ⟨S_, .i32⟩
  | .hbm, ⟨19, _⟩ => ⟨S650000, .i32⟩
  | .hbm, ⟨20, _⟩ => ⟨S650000, .i1⟩
  | .hbm, ⟨21, _⟩ => ⟨S_, .i32⟩
  | .hbm, ⟨22, _⟩ => ⟨S650000, .i32⟩
  | .hbm, ⟨23, _⟩ => ⟨S650000, .i32⟩
  | .hbm, ⟨24, _⟩ => ⟨S650000, .i32⟩
  | .hbm, ⟨25, _⟩ => ⟨S650000x1, .i32⟩
  | .hbm, ⟨26, _⟩ => ⟨S650000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S650000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000x128, .f32⟩
  | .hbm, ⟨46, _⟩ => ⟨S650000x1, .f32⟩
  | .hbm, ⟨47, _⟩ => ⟨S650000x128, .f32⟩
  | .hbm, ⟨48, _⟩ => ⟨S650000x128, .f32⟩
  | .hbm, ⟨49, _⟩ => ⟨S_, .f32⟩
  | .hbm, ⟨50, _⟩ => ⟨S50000x128, .f32⟩
  | .hbm, ⟨51, _⟩ => ⟨S650000x1, .i32⟩
  | .hbm, ⟨52, _⟩ => ⟨S50000x128, .f32⟩
  | .hbm, ⟨53, _⟩ => ⟨S50000x64, .f32⟩
  | .hbm, ⟨54, _⟩ => ⟨S1x64, .f32⟩
  | .hbm, ⟨55, _⟩ => ⟨S50000x64, .f32⟩
  | .hbm, ⟨56, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Dense.lean ====
/-
  The dense layer that closes a graph convolution, as one function of whole arrays.

  Given aggregated node features `h` (50000 nodes, 128 channels), a weight matrix `w` (128 × 64) and a
  bias row `b` (64), entry (r, j) of the result is

      (∑ k < 128, h[r, k] · w[k, j]) + b[j]

  over the extended reals.  Both programs compute the features `h` by the same operations and differ only
  in how they apply this layer: one takes the product of the whole arrays and adds the bias spread over
  all rows; the other cuts the rows into five bands of 10000 and, band by band, accumulates the product
  into zero and adds the bias row.  Each is this function, and nothing about the sum has to be
  rearranged: row r of a band is row r of the array, the contraction runs over the same 128 channels in
  both, and adding the product to zero changes nothing.  No entry needs to be finite for that.
-/
import Idealize.ShloMosaic.PureOps.Ideal
import Idealize.ShloMosaic.Lib.ValueIdx

noncomputable section

namespace Cert.Gcn

open Idealize.ShloMosaic Idealize.ShloMosaic.ValueIdx

/-- `h · w + b`, entry by entry: row `i 0` of the features against column `i 1` of the weights, summed
    over the 128 channels, plus the bias of that column. -/
def dense (h : (⟨2, ![50000, 128]⟩ : Shape).Idx → EReal) (w : (⟨2, ![128, 64]⟩ : Shape).Idx → EReal)
    (b : (⟨1, ![64]⟩ : Shape).Idx → EReal) : (⟨2, ![50000, 64]⟩ : Shape).Idx → EReal :=
  fun i => (∑ k : Fin 128, h (ix2 (n0 := 50000) (n1 := 128) (i 0) k) * w (ix2 (n0 := 128) (n1 := 64) k (i 1)))
    + b (ix1 (n := 64) (i 1))

/-- The same at an index given by its row and column. -/
theorem dense_apply (h : (⟨2, ![50000, 128]⟩ : Shape).Idx → EReal) (w : (⟨2, ![128, 64]⟩ : Shape).Idx → EReal)
    (b : (⟨1, ![64]⟩ : Shape).Idx → EReal) (r : Fin 50000) (j : Fin 64) :
    dense h w b (ix2 r j) = (∑ k : Fin 128, h (ix2 r k) * w (ix2 k j)) + b (ix1 j) := rfl

end Cert.Gcn

end
-- ==== Proof.BandBody.lean ====
/-
  One band of the dense layer, entry by entry.

  The body takes a band `x0` of 10000 feature rows, the whole weight matrix `x1` and the bias as a
  one-row array `x2`, narrows the first two to a shorter float format (which changes nothing on the
  extended reals), multiplies them into an accumulator of zeros and adds the bias row spread over the
  band's rows.  At row p and column q that is

      (∑ k < 128, x0[p, k] · x1[k, q]) + x2[0, q] :

  the accumulator contributes 0, the contraction's one axis is the 128 channels, and a row spread over
  many rows is read at row 0.  Read against the whole arrays the band was cut from, this is the dense
  layer at the array's index.
-/
import proofs.«113624_j57415122813019_1_alg».proof.Proof.Gen.KernelIdeal.Skeleton
import proofs.«113624_j57415122813019_1_alg».proof.Proof.Dense
import Idealize.ShloMosaic.Lib.ValueIdx
import Idealize.ShloMosaic.Lib.Pipeline.Value
import Idealize.ShloMosaic.PureOps.Ideal.Laws

noncomputable section

namespace Cert.Gcn.Band

open Cert.KernelIdeal Cert.KernelIdeal.Gen Idealize.ShloMosaic Idealize.ShloMosaic.ValueIdx

/-! ## The product's operand indices -/

/-- The left operand is read at the output's row … -/
theorem lhs_row (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
/-- … and the contracted channel; -/
theorem lhs_chan (j : S10000x64.Idx) (q : dot_S10000x128_S128x64_S10000x64_1_0_0_1_n_n.contr.Idx) :
    (dot_S10000x128_S128x64_S10000x64_1_0_0_1_n_n.lhsIdx j q 1).val = (q ⟨0, by decide⟩).val :=
  dot_S10000x128_S128x64_S10000x64_1_0_0_1_n_n.lhsIdx_val_of_single rfl j q
/-- the right operand at the contracted channel … -/
theorem rhs_chan (j : S10000x64.Idx) (q : dot_S10000x128_S128x64_S10000x64_1_0_0_1_n_n.contr.Idx) :
    (dot_S10000x128_S128x64_S10000x64_1_0_0_1_n_n.rhsIdx j q 0).val = (q ⟨0, by decide⟩).val :=
  dot_S10000x128_S128x64_S10000x64_1_0_0_1_n_n.rhsIdx_val_of_single rfl j q
/-- … and the output's column. -/
theorem rhs_col (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-! ## The three pieces of the body at an entry -/

/-- The product accumulated into zeros is the plain sum over the 128 channels. -/
theorem product_entry (l : FVec Ideal S10000x128 .bf16) (r : FVec Ideal S128x64 .bf16) (p : Fin 10000) (q : Fin 64) :
    matmul dot_S10000x128_S128x64_S10000x64_1_0_0_1_n_n none l r (constant (F := Ideal) S10000x64 .f32 0x00000000#32)
        (ix2 (n0 := 10000) (n1 := 64) p q)
      = ∑ k : Fin 128, l (ix2 (n0 := 10000) (n1 := 128) p k) * r (ix2 (n0 := 128) (n1 := 64) k q) := by
  simp only [matmul]
  rw [Ideal.matmul_constant_zero_apply,
    ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 (n0 := 10000) (n1 := 64) p q)
      ((contrEquiv1 dot_S10000x128_S128x64_S10000x64_1_0_0_1_n_n 128 rfl rfl).symm k)
      = ix2 (n0 := 10000) (n1 := 128) p k := funext fun a => Fin.ext (by
    match a with
    | ⟨0, _⟩ => exact lhs_row _ _
    | ⟨1, _⟩ => exact (lhs_chan _ _).trans hk)
  have er : dot_S10000x128_S128x64_S10000x64_1_0_0_1_n_n.rhsIdx (ix2 (n0 := 10000) (n1 := 64) p q)
      ((contrEquiv1 dot_S10000x128_S128x64_S10000x64_1_0_0_1_n_n 128 rfl rfl).symm k)
      = ix2 (n0 := 128) (n1 := 64) k q := funext fun a => Fin.ext (by
    match a with
    | ⟨0, _⟩ => exact (rhs_chan _ _).trans hk
    | ⟨1, _⟩ => exact rhs_col _ _)
  rw [el, er]

/-- The bias row spread over the band's rows is read at its one row. -/
theorem bias_entry (v : FVec Ideal S1x64 .f32) (p : Fin 10000) (q : Fin 64) :
    broadcastTo S10000x64 (shapeCast S1x64 v shapeCasts_S1x64_S1x64) broadcasts_S1x64_S10000x64
        (ix2 (n0 := 10000) (n1 := 64) p q)
      = v (ix2 (n0 := 1) (n1 := 64) 0 q) := by
  rw [shapeCast_self]
  exact broadcastTo_apply v broadcasts_S1x64_S10000x64 (ix2 (n0 := 10000) (n1 := 64) p q)
    (ix2 (n0 := 1) (n1 := 64) 0 q) (fun a => match a with
      | ⟨0, _⟩ => by show (0 : Nat) = if (1 : Nat) = 1 then 0 else p.val; rw [if_pos rfl]
      | ⟨1, _⟩ => by show q.val = if (64 : Nat) = 1 then 0 else q.val; rw [if_neg (by decide)])

/-- The body's stored value at row `p`, column `q` of the band. -/
theorem body_entry (x0 : Vec Ideal S10000x128 .f32) (x1 : Vec Ideal S128x64 .f32) (x2 : Vec Ideal S1x64 .f32)
    (p : Fin 10000) (q : Fin 64) :
    k0_pay1 (F := Ideal) x0 x1 x2 (ix2 (n0 := 10000) (n1 := 64) p q)
      = (∑ k : Fin 128, x0 (ix2 (n0 := 10000) (n1 := 128) p k) * x1 (ix2 (n0 := 128) (n1 := 64) k q))
        + x2 (ix2 (n0 := 1) (n1 := 64) 0 q) := by
  unfold k0_pay1
  refine (addf_apply _ _ _).trans ?_
  rw [product_entry, bias_entry, shapeCast_self]
  rfl

/-! ## The band against the arrays it was cut from -/

/-- If the band's row `j 0` is row `i 0` of the feature array `h`, the weights are `w` whole and the bias
    row is `b`'s, with the band's column `j 1` the array's column `i 1`, then the body's value at `j` is the
    dense layer of the whole arrays at `i`. -/
theorem body_is_dense (h : S50000x128.Idx → EReal) (w : S128x64.Idx → EReal) (b : S1x64.Idx → EReal)
    (x0 : Vec Ideal S10000x128 .f32) (x1 : Vec Ideal S128x64 .f32) (x2 : Vec Ideal S1x64 .f32)
    (j : S10000x64.Idx) (i : S50000x64.Idx)
    (h0 : ∀ k : Fin 128, x0 (ix2 (n0 := 10000) (n1 := 128) (j 0) k) = h (ix2 (n0 := 50000) (n1 := 128) (i 0) k))
    (h1 : ∀ k : Fin 128, x1 (ix2 (n0 := 128) (n1 := 64) k (j 1)) = w (ix2 (n0 := 128) (n1 := 64) k (i 1)))
    (h2 : x2 (ix2 (n0 := 1) (n1 := 64) 0 (j 1)) = b (ix2 (n0 := 1) (n1 := 64) 0 (i 1))) :
    k0_pay1 (F := Ideal) x0 x1 x2 j
      = Cert.Gcn.dense h w (fun c => b (ix2 (n0 := 1) (n1 := 64) 0 (c 0))) i := by
  obtain ⟨p, q, rfl⟩ : ∃ (p : Fin 10000) (q : Fin 64), j = ix2 (n0 := 10000) (n1 := 64) p q := ⟨j 0, j 1, eq_ix2 j⟩
  refine (body_entry x0 x1 x2 p q).trans ?_
  unfold Cert.Gcn.dense
  exact congrArg₂ (· + ·) (Finset.sum_congr rfl fun k _ => congrArg₂ (· * ·) (h0 k) (h1 k)) h2

end Cert.Gcn.Band

end
-- ==== Proof.Bands.lean ====
/-
  From five bands to the whole array.

  The grid has five points.  At point `t` the kernel stages rows 10000·t … 10000·t + 9999 of the
  aggregated features (all 128 channels), the whole weight matrix and the one-row bias, and writes back
  rows 10000·t … 10000·t + 9999 of the result (all 64 columns).  So what point `t` writes is band `t` of
  the dense layer of the WHOLE arrays: a band's row p is array row 10000·t + p on both the input and the
  output side, and the other two operands do not move.  The five bands tile the 50000 rows — row r lies
  in band r / 10000 — hence after the run the result array is the dense layer everywhere.

  Where a block sits is a fact about the windows alone, so it is proved for ARBITRARY contents `H`, `W`,
  `B` of the three staged arrays; the arrays the region really finds are put in only at the end.
-/
import proofs.«113624_j57415122813019_1_alg».proof.Proof.Gen.KernelIdeal.Value
import proofs.«113624_j57415122813019_1_alg».proof.Proof.BandBody

noncomputable section

namespace Cert.Gcn.Bands

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets : (![0, 0] : Fin 2 → Nat) = fun _ => 0 := funext fun a => by fin_cases a <;> rfl

/-- Where each window's block sits at point `t`, decided over the five points: the feature band moves with the
    result band along the rows, the weights and the bias stay at the origin, and the result's band number is
    below five. -/
theorem block_positions : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 4 ∧ win0_3.index t (1 : Fin 2) = 0 :=
  (by decide +kernel : ∀ t : Fin grid0.N, _)

/-- Every one of the five bands is some point's. -/
theorem band_onto : ∀ q : Fin 5, ∃ t : Fin cfg0.N, win0_3.index t = ![q.val, 0] :=
  (by decide +kernel : ∀ q : Fin 5, ∃ t : Fin grid0.N, win0_3.index t = ![q.val, 0])

/-! ## The staged blocks of arbitrary arrays, read against those arrays -/

section Blocks

variable (H : (⟨S50000x128, .f32⟩ : BufTy).Contents (Elt Ideal)) (W : (⟨S128x64, .f32⟩ : BufTy).Contents (Elt Ideal))
  (B : (⟨S1x64, .f32⟩ : BufTy).Contents (Elt Ideal))

/-- Row `j 0` of the feature band at point `t` is the feature array's row at the result band's row `j 0`. -/
theorem feature_read (t : Fin cfg0.N) (j : S10000x64.Idx) (k : Fin 128) :
    ((cfg0.win 0).blk t).view.read (Elt Ideal) H (ix2 (n0 := 10000) (n1 := 128) (j 0) k)
      = H (ix2 (n0 := 50000) (n1 := 128) ((((cfg0.win 3).blk t).view.emb j) 0) k) := by
  show H (((cfg0.win 0).blk t).view.emb (ix2 (n0 := 10000) (n1 := 128) (j 0) k)) = H _
  obtain ⟨e0, e1, -, -, -, -, -, -⟩ := block_positions t
  refine congrArg H (funext fun a => Fin.ext ?_)
  match a with
  | ⟨0, _⟩ =>
    show win0_0.index t (0 : Fin 2) * 10000 + 1 * (j 0).val = win0_3.index t (0 : Fin 2) * 10000 + 1 * (j 0).val
    omega
  | ⟨1, _⟩ =>
    show win0_0.index t (1 : Fin 2) * 128 + 1 * k.val = k.val
    omega

/-- The staged weights are the weight array, whatever the point. -/
theorem weight_read (t : Fin cfg0.N) (j : S10000x64.Idx) (k : Fin 128) :
    ((cfg0.win 1).blk t).view.read (Elt Ideal) W (ix2 (n0 := 128) (n1 := 64) k (j 1))
      = W (ix2 (n0 := 128) (n1 := 64) k ((((cfg0.win 3).blk t).view.emb j) 1)) := by
  show W (((cfg0.win 1).blk t).view.emb (ix2 (n0 := 128) (n1 := 64) k (j 1))) = W _
  obtain ⟨-, -, e2, e3, -, -, -, e7⟩ := block_positions t
  refine congrArg W (funext fun a => Fin.ext ?_)
  match a with
  | ⟨0, _⟩ =>
    show win0_1.index t (0 : Fin 2) * 128 + 1 * k.val = k.val
    omega
  | ⟨1, _⟩ =>
    show win0_1.index t (1 : Fin 2) * 64 + 1 * (j 1).val = win0_3.index t (1 : Fin 2) * 64 + 1 * (j 1).val
    omega

/-- The staged bias row is the one-row bias array, whatever the point. -/
theorem bias_read (t : Fin cfg0.N) (j : S10000x64.Idx) :
    ((cfg0.win 2).blk t).view.read (Elt Ideal) B (ix2 (n0 := 1) (n1 := 64) 0 (j 1))
      = B (ix2 (n0 := 1) (n1 := 64) 0 ((((cfg0.win 3).blk t).view.emb j) 1)) := by
  show B (((cfg0.win 2).blk t).view.emb (ix2 (n0 := 1) (n1 := 64) 0 (j 1))) = B _
  obtain ⟨-, -, -, -, e4, e5, -, e7⟩ := block_positions t
  refine congrArg B (funext fun a => Fin.ext ?_)
  match a with
  | ⟨0, _⟩ =>
    show win0_2.index t (0 : Fin 2) * 1 + 1 * 0 = 0
    omega
  | ⟨1, _⟩ =>
    show win0_2.index t (1 : Fin 2) * 64 + 1 * (j 1).val = win0_3.index t (1 : Fin 2) * 64 + 1 * (j 1).val
    omega

/-- The body's result on the blocks of `H`, `W`, `B` at point `t`, read through the result window, is band `t` of
    the dense layer of `H`, `W` and `B`'s row. -/
theorem band_eq (t : Fin cfg0.N) :
    (cfg0.win 3).cut (grid0.coords t)
        (out0_3 (((cfg0.win 0).blk t).view.read (Elt Ideal) H) (((cfg0.win 1).blk t).view.read (Elt Ideal) W)
          (((cfg0.win 2).blk t).view.read (Elt Ideal) B))
      = ((cfg0.win 3).blk t).view.read (Elt Ideal)
          (Cert.Gcn.dense H W (fun b => B (ix2 (n0 := 1) (n1 := 64) 0 (b 0)))) := by
  unfold out0_3
  rw [View.canon_unit_zero zero_offsets]
  simp only [View.ld_unit_zero (S := S10000x128) zero_offsets, View.ld_unit_zero (S := S128x64) zero_offsets,
    View.ld_unit_zero (S := S1x64) zero_offsets]
  funext j
  show k0_pay1 (F := Ideal) (((cfg0.win 0).blk t).view.read (Elt Ideal) H) (((cfg0.win 1).blk t).view.read (Elt Ideal) W)
      (((cfg0.win 2).blk t).view.read (Elt Ideal) B) j
    = Cert.Gcn.dense H W (fun b => B (ix2 (n0 := 1) (n1 := 64) 0 (b 0))) (((cfg0.win 3).blk t).view.emb j)
  exact Cert.Gcn.Band.body_is_dense H W B _ _ _ j (((cfg0.win 3).blk t).view.emb j)
    (fun k => feature_read H t j k) (fun k => weight_read W t j k) (bias_read B t j)

end Blocks

/-! ## The bands tile the rows -/

/-- An index of the result array lies in point `t`'s band iff each coordinate is in the band's range. -/
theorem mem_band (t : Fin cfg0.N) (i : S50000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v41).slice (win0_3.rect t)).set ↔ _
  rw [View.set_slice_whole, Rect.mem_set_unit]
  exact Iff.rfl

/-- Every index of the result array lies in some point's band: row r in band r / 10000. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := band_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_band]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-! ## The arrays the region finds -/

variable (m : (ℓ : Loc nD τ sig) → Buf (Elt Ideal) ℓ)

/-- The dense layer of the arrays as the region finds them: the aggregated features, the weights, and the
    bias read off its one-row copy. -/
abbrev target (c : Dev nD) : S50000x64.Idx → EReal :=
  Cert.Gcn.dense (V m c main_v39) (V m c main_arg2) (fun b => V m c main_v40 (ix2 (n0 := 1) (n1 := 64) 0 (b 0)))

/-- What point `t` writes back is band `t` of the dense layer of the whole arrays. -/
theorem flushed_eq (c : Dev nD) (t : Fin cfg0.N) :
    (dats m 0 c).flushed 3 t = ((cfg0.win 3).blk t).view.read (Elt Ideal) (target m c) :=
  (Cert.KernelIdeal.Value.flushed3 m c t).trans (band_eq (V m c main_v39) (V m c main_arg2) (V m c main_v40) t)

/-- After the run the result array is the dense layer of the arrays the region found. -/
theorem final (c : Dev nD) : (dats m 0 c).arrAt 3 cfg0.N = target m c :=
  (dats m 0 c).arrAt_eq_of_cover 3 (target m c) (fun t _ => flushed_eq m c t) covered

end Cert.Gcn.Bands

end
-- ==== Proof.RegionEntry.lean ====
/-
  What the pallas region finds in its three input arrays.

  Before the region the kernel's program runs fifty host operations.  Forty-nine of them build the
  aggregated features from the node features and the edge list — append the self loops, count each
  node's in-degree by a scatter-add of ones, take its inverse square root, gather it at both ends of
  every edge, scale the gathered source rows, and scatter-add them into their destination rows — and
  they are, operation for operation and literal for literal, the reference's first forty-nine.  So the
  feature array the region stages IS the reference's aggregated-feature function of the same two
  arguments; it is compared as a whole and never opened.  The fiftieth operation lays the bias out as
  one row of 64, which read at (0, q) is the bias at q.  The weights are untouched.
-/
import proofs.«113624_j57415122813019_1_alg».proof.Proof.Gen.KernelIdeal.Frame
import proofs.«113624_j57415122813019_1_alg».proof.Proof.Gen.ReferenceIdeal.Read
import Idealize.ShloMosaic.Lib.StableHlo.Run
import Idealize.ShloMosaic.Lib.Pipeline.Value
import Idealize.ShloMosaic.Lib.ValueIdx

noncomputable section

namespace Cert.Gcn.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 2000000 in
/-- The staged feature array is the reference's aggregated features of the launch contents of the node features and
    the edge list. -/
theorem features_eq (c : Dev nD) :
    (V m c main_v39 : S50000x128.Idx → EReal)
      = Cert.ReferenceIdeal.Read.val_main_v39 (F := Ideal) (m ((c : Thread nD τ).loc main_arg0)) (m ((c : Thread nD τ).loc main_arg1)) := by
  dsimp only [Gen.V, Gen.hostOps0]
  after_results_simp
  rfl

set_option maxRecDepth 8192 in
/-- The staged one-row bias is the bias argument laid out as a row. -/
theorem bias_row_eq (c : Dev nD) :
    (V m c main_v40 : S1x64.Idx → EReal) = shapeCast S1x64 (m ((c : Thread nD τ).loc main_arg3)) shapeCasts_S64_S1x64 := by
  dsimp only [Gen.V, Gen.hostOps0]
  after_results_simp
  rfl

/-- Read at row 0, column `q`, it is the bias at `q`. -/
theorem bias_row_apply (c : Dev nD) (q : Fin 64) :
    V m c main_v40 (ix2 (n0 := 1) (n1 := 64) 0 q) = m ((c : Thread nD τ).loc main_arg3) (ix1 (n := 64) q) := by
  rw [bias_row_eq]
  refine shapeCast_apply _ shapeCasts_S64_S1x64 (ix2 (n0 := 1) (n1 := 64) 0 q) (ix1 (n := 64) q) ?_
  rw [Shape.rowMajor_val_one, Shape.rowMajor_val_two]
  show q.val = 0 * 64 + q.val
  omega

end Cert.Gcn.Entry

end
-- ==== Proof.KernelDense.lean ====
/-
  The kernel's result in terms of its arguments.

  The bands give the result array as the dense layer of the three arrays the region finds; those are the
  aggregated features of the node features and edge list (the same function the reference computes), the
  weights as launched, and the bias laid out as one row.  Reading the row back as the bias itself, the
  result array is the dense layer of the aggregated features, the weights and the bias.
-/
import proofs.«113624_j57415122813019_1_alg».proof.Proof.Bands
import proofs.«113624_j57415122813019_1_alg».proof.Proof.RegionEntry

noncomputable section

namespace Cert.Gcn.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- After the run the result array is the dense layer of the aggregated features of the launch arguments, the
    weights and the bias. -/
theorem result_eq (c : Dev nD) :
    (dats m 0 c).arrAt 3 cfg0.N
      = Cert.Gcn.dense
          (Cert.ReferenceIdeal.Read.val_main_v39 (F := Ideal) (m ((c : Thread nD τ).loc main_arg0)) (m ((c : Thread nD τ).loc main_arg1)))
          (m ((c : Thread nD τ).loc main_arg2)) (m ((c : Thread nD τ).loc main_arg3)) := by
  refine (Cert.Gcn.Bands.final m c).trans ?_
  show Cert.Gcn.dense (V m c main_v39) (V m c main_arg2) (fun b => V m c main_v40 (ix2 (n0 := 1) (n1 := 64) 0 (b 0))) = _
  have hb : (fun b : S64.Idx => V m c main_v40 (ix2 (n0 := 1) (n1 := 64) 0 (b 0))) = m ((c : Thread nD τ).loc main_arg3) :=
    funext fun b => (Cert.Gcn.Entry.bias_row_apply m c (b 0)).trans (congrArg (m ((c : Thread nD τ).loc main_arg3)) (eq_ix1 b).symm)
  rw [hb, Cert.Gcn.Entry.features_eq m c, V_main_arg2 m c]

end Cert.Gcn.Kernel

end
-- ==== Proof.RefDense.lean ====
/-
  The reference applies the dense layer to whole arrays.

  After computing the aggregated features `h` (one function of the node features and the edge list; it
  is never opened here), the reference contracts `h` with the weights over the 128 channels, spreads the
  bias over one row and then over all 50000 rows, and adds.  Read at an index (r, j) those four stages
  are  (∑ k, h[r, k] · w[k, j]) + b[j] : the contraction reads the left operand at (r, k) and the right
  at (k, j), and both spreadings of the bias forget the row.
-/
import proofs.«113624_j57415122813019_1_alg».proof.Proof.Gen.ReferenceIdeal.Read
import proofs.«113624_j57415122813019_1_alg».proof.Proof.Dense

noncomputable section

namespace Cert.Gcn.Ref

open Cert.ReferenceIdeal Cert.ReferenceIdeal.Read Idealize.ShloMosaic Idealize.ShloMosaic.ValueIdx

/-- The reference's result, as a function of its four arguments, is the dense layer of its own aggregated
    features, the weights and the bias. -/
theorem result_eq (x0 : (⟨S50000x128, .f32⟩ : BufTy).Contents (Elt Ideal)) (x1 : (⟨S2x600000, .i32⟩ : BufTy).Contents (Elt Ideal))
    (x2 : (⟨S128x64, .f32⟩ : BufTy).Contents (Elt Ideal)) (x3 : (⟨S64, .f32⟩ : BufTy).Contents (Elt Ideal)) :
    val_main_v43 (F := Ideal) x0 x1 x2 x3 = Cert.Gcn.dense (val_main_v39 (F := Ideal) x0 x1) x2 x3 := by
  funext i
  have el : ∀ k : Fin 128, lidx_main_v40 i k = ix2 (n0 := 50000) (n1 := 128) (i 0) k := fun k =>
    funext fun a => Fin.ext (by match a with | ⟨0, _⟩ => rfl | ⟨1, _⟩ => rfl)
  have er : ∀ k : Fin 128, ridx_main_v40 i k = ix2 (n0 := 128) (n1 := 64) k (i 1) := fun k =>
    funext fun a => Fin.ext (by match a with | ⟨0, _⟩ => rfl | ⟨1, _⟩ => rfl)
  have eb : idx_main_v41 (idx_main_v42 i) = ix1 (n := 64) (i 1) :=
    funext fun a => Fin.ext (by match a with | ⟨0, _⟩ => rfl)
  rw [val_main_v43_apply, val_main_v40_apply, val_main_v42_apply, val_main_v41_apply]
  simp only [el, er, eb, Ideal.addf_def]
  rfl

end Cert.Gcn.Ref

end
-- ==== Proof.lean ====
/-
  A graph-convolution layer: aggregate each node's neighbours' features, scaled by the inverse square roots
  of the two end points' degrees, then apply a dense layer (weights and bias).  The kernel and the
  reference aggregate by the very same host operations and differ only in the dense layer: the reference
  contracts the whole 50000 × 128 feature array with the 128 × 64 weights and adds the bias spread over
  all rows; the kernel does it in five bands of 10000 rows, each band's product accumulated into zeros
  from operands narrowed to a shorter float format, plus the bias row.

  On the extended reals narrowing is the identity and adding to zero changes nothing, so at every index
  (r, j) both results are  (∑ k < 128, h[r, k] · w[k, j]) + b[j]  with `h` the aggregated features: the same
  sum over the same channels, with no rearrangement, so nothing has to be finite.  The features `h` enter
  only as one function of the node features and the edge list, equal on both sides, and are never opened.

  The three frames are the generated ones (for the reference, its generated run with the result dropped);
  the idealization rewrote nothing, so `preserves` asks for nothing.
-/
import proofs.«113624_j57415122813019_1_alg».proof.Defs
import proofs.«113624_j57415122813019_1_alg».proof.Proof.Gen.Kernel
import proofs.«113624_j57415122813019_1_alg».proof.Proof.Gen.Kernel.Skeleton
import proofs.«113624_j57415122813019_1_alg».proof.Proof.Gen.Kernel.Launch
import proofs.«113624_j57415122813019_1_alg».proof.Proof.Gen.Kernel.Points
import proofs.«113624_j57415122813019_1_alg».proof.Proof.Gen.Kernel.Frame
import proofs.«113624_j57415122813019_1_alg».proof.Proof.Gen.KernelIdeal
import proofs.«113624_j57415122813019_1_alg».proof.Proof.Gen.KernelIdeal.Skeleton
import proofs.«113624_j57415122813019_1_alg».proof.Proof.Gen.KernelIdeal.Launch
import proofs.«113624_j57415122813019_1_alg».proof.Proof.Gen.KernelIdeal.Points
import proofs.«113624_j57415122813019_1_alg».proof.Proof.Gen.KernelIdeal.Frame
import proofs.«113624_j57415122813019_1_alg».proof.Proof.Gen.ReferenceIdeal
import proofs.«113624_j57415122813019_1_alg».proof.Proof.Gen.Pre_finite_inputs
import proofs.«113624_j57415122813019_1_alg».proof.Proof.Gen.KernelIdeal.Value
import proofs.«113624_j57415122813019_1_alg».proof.Proof.Gen.ReferenceIdeal.Run
import proofs.«113624_j57415122813019_1_alg».proof.Proof.Gen.ReferenceIdeal.Read
import proofs.«113624_j57415122813019_1_alg».proof.Proof.KernelDense
import proofs.«113624_j57415122813019_1_alg».proof.Proof.RefDense
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the kernel's own text read on the extended reals: no rewrite to account for. -/
theorem preserves : Cert.preserves_Kernel_KernelIdeal := trivial

/-- From memories that agree on the four arguments both programs end with the dense layer of the aggregated
    features, the weights and the bias: the kernel band by band, the reference in one contraction. -/
theorem algebraic : Cert.algebraic_KernelIdeal_ReferenceIdeal := by
  intro m ρ m' ρ' _ hagree
  refine ⟨fun c => Cert.Gcn.dense
      (Cert.ReferenceIdeal.Read.val_main_v39 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.Gcn.Kernel.result_eq m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3⟩ := hagree c
    rw [Cert.ReferenceIdeal.Read.val_main_v43_eq, Cert.Gcn.Ref.result_eq, e0, e1, e2, e3]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
